-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096 : Shape := ⟨2, ![256, 4096]⟩
abbrev S4096x4096 : Shape := ⟨2, ![4096, 4096]⟩
abbrev S1000000 : Shape := ⟨1, ![1000000]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1000000 : S_.BroadcastsInDim S1000000 (![] : Fin 0 → Fin S1000000.rank)
  reducesTo_S1000000_S_d0 : S1000000.ReducesTo [0] S_

variable [Facts]

def fn {F : FTy → Type} [FloatOps F] (main_arg0 : FVec F S256x4096 .f32) (main_arg1 : FVec F S4096x4096 .f32) (main_arg2 : IVec S1000000 32) (main_arg3 : FVec F S1000000 .f32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S1000000 .f32 := Host.absf main_arg3
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  main_v13
-- ==== Kernel.lean ====
abbrev S256x4096 : Shape := ⟨2, ![256, 4096]⟩
abbrev S4096x4096 : Shape := ⟨2, ![4096, 4096]⟩
abbrev S1000000 : Shape := ⟨1, ![1000000]⟩
abbrev S16777216 : Shape := ⟨1, ![16777216]⟩
abbrev S_ : Shape := ⟨0, ![]⟩
abbrev S1000000x1 : Shape := ⟨2, ![1000000, 1]⟩
abbrev S512x4096 : Shape := ⟨2, ![512, 4096]⟩
abbrev S256x512 : Shape := ⟨2, ![256, 512]⟩

abbrev nBuf : Space → Nat
  | .hbm => 20
  | .vmem => 5
  | .smem => 0
  | _ => 0

abbrev bufTy : (tb : Table) → Fin (tcTables nBuf tb) → BufTy
  | .hbm, ⟨0, _⟩ => ⟨S256x4096, .f32⟩
  | .hbm, ⟨1, _⟩ => ⟨S4096x4096, .f32⟩
  | .hbm, ⟨2, _⟩ => ⟨S1000000, .i32⟩
  | .hbm, ⟨3, _⟩ => ⟨S1000000, .f32⟩
  | .hbm, ⟨4, _⟩ => ⟨S16777216, .f32⟩
  | .hbm, ⟨5, _⟩ => ⟨S_, .f32⟩
  | .hbm, ⟨6, _⟩ => ⟨S1000000, .f32⟩
  | .hbm, ⟨7, _⟩ => ⟨S1000000, .f32⟩
  | .hbm, ⟨8, _⟩ => ⟨S_, .i32⟩
  | .hbm, ⟨9, _⟩ => ⟨S1000000, .i32⟩
  | .hbm, ⟨10, _⟩ => ⟨S1000000, .i1⟩
  | .hbm, ⟨11, _⟩ => ⟨S_, .i32⟩
  | .hbm, ⟨12, _⟩ => ⟨S1000000, .i32⟩
  | .hbm, ⟨13, _⟩ => ⟨S1000000, .i32⟩
  | .hbm, ⟨14, _⟩ => ⟨S1000000, .i32⟩
  | .hbm, ⟨15, _⟩ => ⟨S1000000x1, .i32⟩
  | .hbm, ⟨16, _⟩ => ⟨S16777216, .f32⟩
  | .hbm, ⟨17, _⟩ => ⟨S4096x4096, .f32⟩
  | .hbm, ⟨18, _⟩ => ⟨S256x4096, .bf16⟩
  | .hbm, ⟨19, _⟩ => ⟨S256x4096, .f32⟩
  | .local _ .vmem, ⟨0, _⟩ => ⟨S256x4096, .bf16⟩
  | .local _ .vmem, ⟨1, _⟩ => ⟨S512x4096, .f32⟩
  | .local _ .vmem, ⟨2, _⟩ => ⟨S512x4096, .f32⟩
  | .local _ .vmem, ⟨3, _⟩ => ⟨S256x512, .f32⟩
  | .local _ .vmem, ⟨4, _⟩ => ⟨S256x512, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_call0_c : Ref sig .tc := ⟨.hbm, 8, rfl⟩
abbrev main_call0_v3 : Ref sig .tc := ⟨.hbm, 9, rfl⟩
abbrev main_call0_v4 : Ref sig .tc := ⟨.hbm, 10, rfl⟩
abbrev main_call0_c_0 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_v0 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096x4096_S16777216 : S4096x4096.ShapeCasts S16777216
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S16777216_S4096x4096 : S16777216.ShapeCasts S4096x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x512_S256x512_0_0 : ∀ a, (![0, 0] : Fin 2 → Nat) a + S256x512.size a ≤ S256x512.size a
  h_S256x512 : 0 < S256x512.numel
  scatter_S16777216_S1000000x1_S1000000_n_0_0_1_wf : ScatterDims.WF S16777216 S1000000x1 S1000000 [] [0] [0] 1
  dot_S256x4096_S512x4096_S256x512_1_1_0_0_n_n_wf : DotDims.WF S256x4096 S512x4096 S256x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x4096.size a
  hwx0_0 : ∀ i : grid0.Coords, EltTy.bits .bf16 = 32 ∨ (Rect.block (s := S256x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x4096.size a
  hwx0_2 : ∀ i : grid0.Coords, EltTy.bits .f32 = 32 ∨ (Rect.block (s := S256x4096) S256x512.size (cc0_transform_2 i) (hinb0_2 i)).WholeWords (EltTy.packing .f32)

variable [Facts₀]

def scatter_S16777216_S1000000x1_S1000000_n_0_0_1 : ScatterDims S16777216 S1000000x1 S1000000 where
  updateWindowDims := []
  insertedWindowDims := [0]
  scatterDimsToOperandDims := [0]
  indexVectorDim := 1
  wf := scatter_S16777216_S1000000x1_S1000000_n_0_0_1_wf
def dot_S256x4096_S512x4096_S256x512_1_1_0_0_n_n : DotDims S256x4096 S512x4096 S256x512 where
  lhsContracting := [1]
  rhsContracting := [1]
  lhsNonContracting := [0]
  rhsNonContracting := [0]
  lhsBatch := []
  rhsBatch := []
  wf := dot_S256x4096_S512x4096_S256x512_1_1_0_0_n_n_wf

abbrev win0_0 : Pipeline.Window sig grid0 :=
  Pipeline.Window.ofSpec (Memref.whole main_call0_v11) S256x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v10) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x4096 : Shape := ⟨2, ![256, 4096]⟩
abbrev S4096x4096 : Shape := ⟨2, ![4096, 4096]⟩
abbrev S1000000 : Shape := ⟨1, ![1000000]⟩
abbrev S16777216 : Shape := ⟨1, ![16777216]⟩
abbrev S_ : Shape := ⟨0, ![]⟩
abbrev S1000000x1 : Shape := ⟨2, ![1000000, 1]⟩

abbrev nBuf : Space → Nat
  | .hbm => 19
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S4096x4096, .f32⟩
  | .hbm, ⟨2, _⟩ => ⟨S1000000, .i32⟩
  | .hbm, ⟨3, _⟩ => ⟨S1000000, .f32⟩
  | .hbm, ⟨4, _⟩ => ⟨S16777216, .f32⟩
  | .hbm, ⟨5, _⟩ => ⟨S_, .f32⟩
  | .hbm, ⟨6, _⟩ => ⟨S1000000, .f32⟩
  | .hbm, ⟨7, _⟩ => ⟨S1000000, .f32⟩
  | .hbm, ⟨8, _⟩ => ⟨S_, .i32⟩
  | .hbm, ⟨9, _⟩ => ⟨S1000000, .i32⟩
  | .hbm, ⟨10, _⟩ => ⟨S1000000, .i1⟩
  | .hbm, ⟨11, _⟩ => ⟨S_, .i32⟩
  | .hbm, ⟨12, _⟩ => ⟨S1000000, .i32⟩
  | .hbm, ⟨13, _⟩ => ⟨S1000000, .i32⟩
  | .hbm, ⟨14, _⟩ => ⟨S1000000, .i32⟩
  | .hbm, ⟨15, _⟩ => ⟨S1000000x1, .i32⟩
  | .hbm, ⟨16, _⟩ => ⟨S16777216, .f32⟩
  | .hbm, ⟨17, _⟩ => ⟨S4096x4096, .f32⟩
  | .hbm, ⟨18, _⟩ => ⟨S256x4096, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  shapeCasts_S4096x4096_S16777216 : S4096x4096.ShapeCasts S16777216
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S16777216_S4096x4096 : S16777216.ShapeCasts S4096x4096
  scatter_S16777216_S1000000x1_S1000000_n_0_0_1_wf : ScatterDims.WF S16777216 S1000000x1 S1000000 [] [0] [0] 1
  dot_S256x4096_S4096x4096_S256x4096_1_1_0_0_n_n_wf : DotDims.WF S256x4096 S4096x4096 S256x4096 [1] [1] [0] [0] [] []

variable [Facts₀]

def scatter_S16777216_S1000000x1_S1000000_n_0_0_1 : ScatterDims S16777216 S1000000x1 S1000000 where
  updateWindowDims := []
  insertedWindowDims := [0]
  scatterDimsToOperandDims := [0]
  indexVectorDim := 1
  wf := scatter_S16777216_S1000000x1_S1000000_n_0_0_1_wf
def dot_S256x4096_S4096x4096_S256x4096_1_1_0_0_n_n : DotDims S256x4096 S4096x4096 S256x4096 where
  lhsContracting := [1]
  rhsContracting := [1]
  lhsNonContracting := [0]
  rhsNonContracting := [0]
  lhsBatch := []
  rhsBatch := []
  wf := dot_S256x4096_S4096x4096_S256x4096_1_1_0_0_n_n_wf

class Facts : Prop extends Facts₀ where

variable [Facts]
-- ==== Proof.LibRowsProduct.lean ====
/-
  A product of two matrices taken row against row, `A · Bᵀ`, read at an index, over the extended reals.

  For the dimension numbers that contract the second axis of an `R × n` matrix `A` with the second axis of a
  `k × n` matrix `B`, with no batch axis — a linear layer `x · wᵀ` whose weights are stored one output feature per
  row —, the product at row `q` and column `o` is the sum over `c : Fin n` of `A (q, c) * B (o, c)`: row `q` of
  `A` against row `o` of `B`. The contraction index, a multi-index of one axis, is re-indexed by its one
  coordinate. Stated for a matrix-unit product accumulated into the zero matrix (the zero accumulator contributes
  `0 + _`) and for the host's product alike. The statements quantify over the well-formedness proof only, so they
  apply to any record with these six lists.
-/
import Idealize.ShloMosaic.PureOps.Ideal
import Idealize.ShloMosaic.PureOps.Ideal.Laws
import Idealize.ShloMosaic.Lib.ValueIdx

noncomputable section

namespace Cert.RowsProduct

open Idealize.ShloMosaic Idealize.ShloMosaic.ValueIdx

/-- The dimension numbers of `A · Bᵀ` for `A : R × n` and `B : k × n`, for any proof that they are well formed. -/
abbrev rowsDims (R n k : Nat)
    (wf : DotDims.WF (⟨2, ![R, n]⟩ : Shape) ⟨2, ![k, n]⟩ ⟨2, ![R, k]⟩ [1] [1] [0] [0] [] []) :
    DotDims (⟨2, ![R, n]⟩ : Shape) ⟨2, ![k, n]⟩ ⟨2, ![R, k]⟩ :=
  { lhsContracting := [1], rhsContracting := [1], lhsNonContracting := [0], rhsNonContracting := [0],
    lhsBatch := [], rhsBatch := [], wf := wf }

/-- The contraction index of such a product is one coordinate in `Fin n`. -/
abbrev shared {R n k : Nat} (wf) : (rowsDims R n k wf).contr.Idx ≃ Fin n :=
  contrEquiv1 (rowsDims R n k wf) n rfl rfl

/-- The left operand's row is the output's row, whatever the shared coordinate. -/
theorem lhs_row {R n k : Nat} (wf) (i : (⟨2, ![R, k]⟩ : Shape).Idx) (κ : (rowsDims R n k wf).contr.Idx) :
    ((rowsDims R n k wf).lhsIdx i κ 0).val = (i 0).val := by
  unfold DotDims.lhsIdx
  rw [dif_neg (show ¬(0 : Fin (⟨2, ![R, n]⟩ : Shape).rank) ∈ (rowsDims R n k wf).lhsBatch from List.not_mem_nil),
    dif_pos (show (0 : Fin (⟨2, ![R, n]⟩ : Shape).rank) ∈ (rowsDims R n k wf).lhsNonContracting from
      List.mem_singleton.mpr rfl)]
  rfl

/-- The right operand's row is the output's column. -/
theorem rhs_row {R n k : Nat} (wf) (i : (⟨2, ![R, k]⟩ : Shape).Idx) (κ : (rowsDims R n k wf).contr.Idx) :
    ((rowsDims R n k wf).rhsIdx i κ 0).val = (i 1).val := by
  unfold DotDims.rhsIdx
  rw [dif_neg (show ¬(0 : Fin (⟨2, ![k, n]⟩ : Shape).rank) ∈ (rowsDims R n k wf).rhsBatch from List.not_mem_nil),
    dif_pos (show (0 : Fin (⟨2, ![k, n]⟩ : Shape).rank) ∈ (rowsDims R n k wf).rhsNonContracting from
      List.mem_singleton.mpr rfl)]
  rfl

/-- At output `(q, o)` and shared coordinate `c` the left operand is read at `(q, c)`. -/
theorem lhsIdx_eq {R n k : Nat} (wf) (q : Fin R) (o : Fin k) (c : Fin n) :
    (rowsDims R n k wf).lhsIdx (ix2 q o) ((shared wf).symm c) = ix2 q c := by
  funext a
  apply Fin.ext
  match a with
  | ⟨0, _⟩ => exact lhs_row wf _ _
  | ⟨1, _⟩ =>
    exact ((rowsDims R n k wf).lhsIdx_val_of_single rfl (ix2 q o) ((shared wf).symm c)).trans
      (contrEquiv1_symm_val (rowsDims R n k wf) n rfl rfl c)

/-- … and the right operand at `(o, c)`. -/
theorem rhsIdx_eq {R n k : Nat} (wf) (q : Fin R) (o : Fin k) (c : Fin n) :
    (rowsDims R n k wf).rhsIdx (ix2 q o) ((shared wf).symm c) = ix2 o c := by
  funext a
  apply Fin.ext
  match a with
  | ⟨0, _⟩ => exact rhs_row wf _ _
  | ⟨1, _⟩ =>
    exact ((rowsDims R n k wf).rhsIdx_val_of_single rfl (ix2 q o) ((shared wf).symm c)).trans
      (contrEquiv1_symm_val (rowsDims R n k wf) n rfl rfl c)

/-- A matrix-unit product `A · Bᵀ` accumulated into the zero matrix, at `(q, o)`: row `q` of `A` against row `o`
    of `B`. -/
theorem matmul_zero_apply {R n k : Nat} {φ₁ φ₂ : FTy} (wf) (prec : Option ContractPrecision)
    (A : FVec Ideal (⟨2, ![R, n]⟩ : Shape) φ₁) (B : FVec Ideal (⟨2, ![k, n]⟩ : Shape) φ₂) (q : Fin R) (o : Fin k) :
    FloatOps.matmul (rowsDims R n k wf) prec A B (constant (F := Ideal) (⟨2, ![R, k]⟩ : Shape) .f32 0x00000000#32) (ix2 q o)
      = ∑ c : Fin n, A (ix2 q c) * B (ix2 o c) := by
  rw [Ideal.matmul_constant_zero_apply, ← Equiv.sum_comp (shared wf).symm]
  refine Finset.sum_congr rfl fun c _ => ?_
  rw [lhsIdx_eq, rhsIdx_eq]

/-- The host's product `A · Bᵀ`, at `(q, o)`: the same sum, whatever the schedule. -/
theorem dotGeneral_apply {R n k : Nat} {φ₁ φ₂ : FTy} (wf) (prec : Option ContractPrecision) (sched : HostSchedule)
    (A : FVec Ideal (⟨2, ![R, n]⟩ : Shape) φ₁) (B : FVec Ideal (⟨2, ![k, n]⟩ : Shape) φ₂) (q : Fin R) (o : Fin k) :
    FloatOps.dotGeneral (rowsDims R n k wf) prec sched A B (ix2 q o) = ∑ c : Fin n, A (ix2 q c) * B (ix2 o c) := by
  rw [Ideal.dotGeneral_apply, ← Equiv.sum_comp (shared wf).symm]
  refine Finset.sum_congr rfl fun c _ => ?_
  rw [lhsIdx_eq, rhsIdx_eq]

end Cert.RowsProduct

end
-- ==== Proof.BlockProduct.lean ====
/-
  One grid point's block of the product, read at an entry.

  The body loads the whole left operand `a` (256 rows) and a block `b` of 512 rows of the right operand, both with
  4096 columns, narrows `b` to the shorter float format — the identity on the extended reals — and contracts the two
  over their shared second axis into a zero accumulator. So the stored block, at row `p` and column `q`, is the sum
  over `k` of `a (p, k) · b (q, k)`: row `p` of the left block against row `q` of the right block.
-/
import proofs.«168337_j16174846836835_2_alg».proof.Proof.Gen.KernelIdeal.Skeleton
import proofs.«168337_j16174846836835_2_alg».proof.Proof.LibRowsProduct
import Idealize.ShloMosaic.Lib.ValueIdx
import Idealize.ShloMosaic.Lib.Pipeline.Value

noncomputable section

namespace Cert.KernelIdeal.BlockProduct

open Cert.KernelIdeal Cert.KernelIdeal.Gen Idealize.ShloMosaic Idealize.ShloMosaic.ValueIdx

/-- The stored block at `(p, q)`: row `p` of the left block against row `q` of the right block. The two reshapes
    to the same shape and the narrowing change nothing; what is left is a product taken row against row into zero. -/
theorem pay_apply (a : Vec Ideal S256x4096 .bf16) (b : Vec Ideal S512x4096 .f32) (p : Fin 256) (q : Fin 512) :
    k0_pay1 (F := Ideal) a b (ix2 p q) = ∑ k : Fin 4096, a (ix2 p k) * b (ix2 q k) := by
  unfold k0_pay1
  rw [shapeCast_self, shapeCast_self]
  refine (Cert.RowsProduct.matmul_zero_apply dot_S256x4096_S512x4096_S256x512_1_1_0_0_n_n_wf none a
    (truncf .bf16 b bitsLt_bf16_f32) p q).trans ?_
  rfl

end Cert.KernelIdeal.BlockProduct

end
-- ==== Proof.RowProducts.lean ====
/-
  The linear layer `x · wᵀ` over the extended reals, entry by entry.

  For an input `x` of 256 rows and a weight matrix `w` of 4096 rows, both with 4096 columns, entry `(p, o)` of the
  result is the sum over the shared column index `k` of `x (p, k) · w (o, k)`: row `p` of the input against row `o`
  of the weights. Both programs compute this function of the same two matrices; everything else in the proof is
  about which entries each of them reads.
-/
import Idealize.ShloMosaic.PureOps.Ideal
import Idealize.ShloMosaic.Lib.ValueIdx

noncomputable section

namespace Cert.FlippedLinear

open Idealize.ShloMosaic Idealize.ShloMosaic.ValueIdx

/-- Row `p` of `x` against row `o` of `w`: the sum over the shared column index. -/
def rowDot (x : (⟨2, ![256, 4096]⟩ : Shape).Idx → EReal) (w : (⟨2, ![4096, 4096]⟩ : Shape).Idx → EReal)
    (p : Fin 256) (o : Fin 4096) : EReal :=
  ∑ k : Fin 4096, x (ix2 p k) * w (ix2 o k)

/-- The layer's output: at index `i`, row `i 0` of `x` against row `i 1` of `w`. -/
def linear (x : (⟨2, ![256, 4096]⟩ : Shape).Idx → EReal) (w : (⟨2, ![4096, 4096]⟩ : Shape).Idx → EReal) :
    (⟨2, ![256, 4096]⟩ : Shape).Idx → EReal :=
  fun i => rowDot x w (i 0) (i 1)

theorem linear_ix2 (x : (⟨2, ![256, 4096]⟩ : Shape).Idx → EReal) (w : (⟨2, ![4096, 4096]⟩ : Shape).Idx → EReal)
    (p : Fin 256) (o : Fin 4096) : linear x w (ix2 p o) = rowDot x w p o := rfl

end Cert.FlippedLinear

end
-- ==== Proof.OutputArray.lean ====
/-
  From the blocks each grid point writes to the whole output array.

  The grid has eight points. At point `t` the input's block is the whole input (its block index is `(0, 0)`), the
  weight block is rows `512·t … 512·t + 511` of the staged weight matrix, and the output block is columns
  `512·t … 512·t + 511` of the output. By the body's product, entry `(p, q)` of the block point `t` writes back is
  row `p` of the input against row `512·t + q` of the weights — the layer's output at `(p, 512·t + q)`. Column `o`
  of the output lies in the block of point `o / 512`, so the blocks cover the array and it ends holding the layer's
  output of the two staged arrays.
-/
import proofs.«168337_j16174846836835_2_alg».proof.Proof.Gen.KernelIdeal.Value
import proofs.«168337_j16174846836835_2_alg».proof.Proof.BlockProduct
import proofs.«168337_j16174846836835_2_alg».proof.Proof.RowProducts
import Idealize.ShloMosaic.Lib.Pipeline.Value
import Idealize.ShloMosaic.Lib.ValueIdx

noncomputable section

namespace Cert.KernelIdeal.OutputArray

open Cert.KernelIdeal Cert.KernelIdeal.Gen Idealize.ShloMosaic Idealize.ShloMosaic.TcCoe Idealize.SL.Sem
open Idealize.ShloMosaic.ValueIdx
open Idealize.ShloMosaic.Pipeline (Dat)
open Cert.FlippedLinear

variable (m : (ℓ : Loc nD τ sig) → Buf (Elt Ideal) ℓ)

/-- The body's rectangles start at the origin. -/
theorem origin : (![0, 0] : Fin 2 → Nat) = fun _ => 0 := funext fun a => by fin_cases a <;> rfl

/-- The grid has eight points. -/
theorem point_lt (t : Fin cfg0.N) : t.val < 8 := Nat.lt_of_lt_of_eq t.isLt N_0

/-- Where each window's block sits at point `t`, decided over the grid: the input's block index is `(0, 0)`, the
    weights' is `(t, 0)`, the output's is `(0, t)`. -/
theorem blockIndices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val)

/-- Row `q` of point `t`'s weight block, and column `q` of its output block, as a row of the weight matrix. -/
def row (t : Fin cfg0.N) (q : Fin 512) : Fin 4096 := ⟨t.val * 512 + q.val, by have := point_lt t; omega⟩

/-- Entry `(p, k)` of the input's block, at any point, is entry `(p, k)` of the input. -/
theorem input_index (t : Fin cfg0.N) (p : Fin 256) (k : Fin 4096) :
    ((cfg0.win 0).blk t).view.emb (ix2 p k) = ix2 p k := by
  obtain ⟨e0, e1, -⟩ := blockIndices t
  funext a
  apply Fin.ext
  match a with
  | ⟨0, _⟩ => show win0_0.index t (0 : Fin 2) * 256 + 1 * p.val = p.val; omega
  | ⟨1, _⟩ => show win0_0.index t (1 : Fin 2) * 4096 + 1 * k.val = k.val; omega

/-- Entry `(q, k)` of point `t`'s weight block is entry `(512·t + q, k)` of the weight matrix. -/
theorem weight_index (t : Fin cfg0.N) (q : Fin 512) (k : Fin 4096) :
    ((cfg0.win 1).blk t).view.emb (ix2 q k) = ix2 (row t q) k := by
  obtain ⟨-, -, e2, e3, -⟩ := blockIndices t
  funext a
  apply Fin.ext
  match a with
  | ⟨0, _⟩ => show win0_1.index t (0 : Fin 2) * 512 + 1 * q.val = t.val * 512 + q.val; omega
  | ⟨1, _⟩ => show win0_1.index t (1 : Fin 2) * 4096 + 1 * k.val = k.val; omega

/-- The arrays the region stages, as it finds them: the input (window 0) and the weight matrix (window 1). They are
    carried as they are; which arguments they are functions of is read elsewhere. -/
abbrev stagedInput (c : Dev nD) : S256x4096.Idx → EReal := V m c (Pipeline.arrRef spec0 0)
@[inherit_doc stagedInput]
abbrev stagedWeights (c : Dev nD) : S4096x4096.Idx → EReal := V m c (Pipeline.arrRef spec0 1)

/-- Any array read through the input's block at any point, at `(p, k)`, is the array at `(p, k)`. -/
theorem read_input_block (t : Fin cfg0.N) (A : S256x4096.Idx → EReal) (p : Fin 256) (k : Fin 4096) :
    ((cfg0.win 0).blk t).view.read (Elt Ideal) A (ix2 p k) = A (ix2 p k) := by
  rw [View.read_apply, input_index t p k]
  rfl

/-- Any array read through point `t`'s weight block, at `(q, k)`, is the array at row `512·t + q`. -/
theorem read_weight_block (t : Fin cfg0.N) (A : S4096x4096.Idx → EReal) (q : Fin 512) (k : Fin 4096) :
    ((cfg0.win 1).blk t).view.read (Elt Ideal) A (ix2 q k) = A (ix2 (row t q) k) := by
  rw [View.read_apply, weight_index t q k]
  rfl

/-- The input's block at any point, read at `(p, k)`, is the staged input there. -/
theorem input_block (c : Dev nD) (t : Fin cfg0.N) (p : Fin 256) (k : Fin 4096) :
    iblk m c 0 t (ix2 p k) = stagedInput m c (ix2 p k) := by
  unfold iblk
  exact read_input_block t (V m c (Pipeline.arrRef spec0 0)) p k

/-- The weights' block at point `t`, read at `(q, k)`, is the staged weight matrix at row `512·t + q`. -/
theorem weight_block (c : Dev nD) (t : Fin cfg0.N) (q : Fin 512) (k : Fin 4096) :
    iblk m c 1 t (ix2 q k) = stagedWeights m c (ix2 (row t q) k) := by
  unfold iblk
  exact read_weight_block t (V m c (Pipeline.arrRef spec0 1)) q k

/-- Entry `(p, q)` of point `t`'s output block is entry `(p, 512·t + q)` of the output. -/
theorem output_index (t : Fin cfg0.N) (p : Fin 256) (q : Fin 512) :
    ((cfg0.win 2).blk t).view.emb (ix2 p q) = ix2 p (row t q) := by
  obtain ⟨-, -, -, -, e4, e5⟩ := blockIndices t
  funext a
  apply Fin.ext
  match a with
  | ⟨0, _⟩ => show win0_2.index t (0 : Fin 2) * 256 + 1 * p.val = p.val; omega
  | ⟨1, _⟩ => show win0_2.index t (1 : Fin 2) * 512 + 1 * q.val = t.val * 512 + q.val; omega

/-- WHAT POINT `t` WRITES BACK is block `t` of the layer's output of the two staged arrays. -/
theorem flushed_eq (c : Dev nD) (t : Fin cfg0.N) :
    (dats m 0 c).flushed 2 t
      = ((cfg0.win 2).blk t).view.read (Elt Ideal) (linear (stagedInput m c) (stagedWeights m c)) := by
  rw [Value.flushed2]
  unfold out0_2
  rw [View.canon_unit_zero origin]
  simp only [View.ld_unit_zero (S := S256x4096) origin, View.ld_unit_zero (S := S512x4096) origin]
  funext j
  obtain ⟨p, q, rfl⟩ : ∃ (p : Fin 256) (q : Fin 512), j = ix2 p q := ⟨j 0, j 1, eq_ix2 j⟩
  show k0_pay1 (F := Ideal) (iblk m c 0 t) (iblk m c 1 t) (ix2 p q)
    = linear (stagedInput m c) (stagedWeights m c) (((cfg0.win 2).blk t).view.emb (ix2 p q))
  rw [output_index t p q, linear_ix2]
  refine (BlockProduct.pay_apply (iblk m c 0 t) (iblk m c 1 t) p q).trans ?_
  unfold rowDot
  refine Finset.sum_congr rfl fun k _ => ?_
  rw [input_block m c t p k, weight_block m c t q k]

/-- An index of the output is in point `t`'s block iff each coordinate is in the block's range on its axis. -/
theorem mem_block (t : Fin cfg0.N) (i : S256x4096.Idx) :
    i ∈ ((cfg0.win 2).blk t).view.set ↔ ∀ a : Fin 2, win0_2.index t a * S256x512.size a ≤ (i a).val
      ∧ (i a).val < win0_2.index t a * S256x512.size a + S256x512.size a := by
  show i ∈ ((View.whole main_v0).slice (win0_2.rect t)).set ↔ _
  rw [View.set_slice_whole, Rect.mem_set_unit]
  exact Iff.rfl

/-- Every index of the output is in some point's block: column `o` in the block of point `o / 512`. -/
theorem covered (i : S256x4096.Idx) :
    ∃ t : Fin cfg0.N, (cfg0.win 2).flush t = true ∧ i ∈ ((cfg0.win 2).blk t).view.set := by
  have hi0 : (i 0).val < 256 := (i 0).isLt
  have hi1 : (i 1).val < 4096 := (i 1).isLt
  have ht : (i 1).val / 512 < cfg0.N := Nat.lt_of_lt_of_eq (by omega : (i 1).val / 512 < 8) N_0.symm
  obtain ⟨-, -, -, -, e4, e5⟩ := blockIndices ⟨(i 1).val / 512, ht⟩
  have e5' : win0_2.index ⟨(i 1).val / 512, ht⟩ (1 : Fin 2) = (i 1).val / 512 := e5
  refine ⟨⟨(i 1).val / 512, ht⟩, flush0_2 _, ?_⟩
  rw [mem_block]
  intro a
  match a with
  | ⟨0, _⟩ =>
    show win0_2.index ⟨(i 1).val / 512, ht⟩ (0 : Fin 2) * 256 ≤ (i 0).val
      ∧ (i 0).val < win0_2.index ⟨(i 1).val / 512, ht⟩ (0 : Fin 2) * 256 + 256
    omega
  | ⟨1, _⟩ =>
    show win0_2.index ⟨(i 1).val / 512, ht⟩ (1 : Fin 2) * 512 ≤ (i 1).val
      ∧ (i 1).val < win0_2.index ⟨(i 1).val / 512, ht⟩ (1 : Fin 2) * 512 + 512
    omega

/-- THE OUTPUT ARRAY after the run is the layer's output of the two staged arrays. -/
theorem final (c : Dev nD) :
    (dats m 0 c).arrAt 2 cfg0.N = linear (stagedInput m c) (stagedWeights m c) :=
  (dats m 0 c).arrAt_eq_of_cover 2 (linear (stagedInput m c) (stagedWeights m c))
    (fun t _ => flushed_eq m c t) covered

end Cert.KernelIdeal.OutputArray

end
-- ==== Proof.LibTypedRef.lean ====
/-
  Typed references: a value stored through a typed reference and read back through the same reference.

  A module-local function's body is printed over typed references: each carries a buffer and the proof that the buffer's
  type is the value's, and contents pass to and from the buffer by transport along that proof. Read at once, a line of such
  operations leaves a transport pair around every intermediate value. The pair cancels, for any signature and any values.
-/
import Idealize.ShloMosaic.Lib.StableHlo

noncomputable section

namespace Cert.TypedRef

open Idealize.ShloMosaic Idealize.ShloMosaic.StableHlo

/-- A value written to a typed reference's buffer and read back through the same reference is the value. -/
theorem ofBuf_toBuf {sig : RefSig} {Val : EltTy → Type} {T : BufTy} (x : TRef sig T) (v : T.Contents Val) :
    x.ofBuf (x.toBuf v) = v := by
  obtain ⟨r, h, _, _⟩ := x
  subst h
  rfl

end Cert.TypedRef

end
-- ==== Proof.EntryArrays.lean ====
/-
  What the region finds in the two arrays it stages.

  Before the region the program flattens the weight matrix, overwrites it at each listed position with a tenth of the
  listed value (a position below zero is counted from the end), folds the result back to a matrix, and narrows the
  input to the shorter float format. On the extended reals the narrowing is the identity, so the staged input is the
  input itself. The staged weight matrix is the overwritten matrix `flipped`; the reference builds its own weight
  matrix by the same operations on the same arguments, so the two are one function.
-/
import proofs.«168337_j16174846836835_2_alg».proof.Proof.Gen.KernelIdeal.Frame
import proofs.«168337_j16174846836835_2_alg».proof.Proof.Gen.ReferenceIdeal.Read
import proofs.«168337_j16174846836835_2_alg».proof.Proof.LibTypedRef
import Idealize.ShloMosaic.Lib.StableHlo.Run

noncomputable section

namespace Cert.KernelIdeal.EntryArrays

open Cert.KernelIdeal Cert.KernelIdeal.Gen Idealize.ShloMosaic Idealize.ShloMosaic.TcCoe Idealize.SL.Sem
open Idealize.ShloMosaic.StableHlo

/-- The weight matrix with a tenth of each listed value written at its listed position of the flattened matrix. -/
def flipped (w : S4096x4096.Idx → EReal) (pos : S1000000.Idx → BitVec 32) (vals : S1000000.Idx → EReal) :
    S4096x4096.Idx → EReal :=
  shapeCast S4096x4096 (Host.scatter scatter_S16777216_S1000000x1_S1000000_n_0_0_1 (fun _ b => b)
    (shapeCast S16777216 w shapeCasts_S4096x4096_S16777216)
    (broadcastInDim S1000000x1 ![0] bcast_S1000000_S1000000x1_0
      (select (cmpi .slt pos (broadcastInDim S1000000 ![] bcast_S_S1000000 (constantI S_ 32 0#32)))
        (addi pos (broadcastInDim S1000000 ![] bcast_S_S1000000 (constantI S_ 32 16777216#32))) pos))
    (mulf vals (broadcastInDim S1000000 ![] bcast_S_S1000000 (constant (F := Ideal) S_ .f32 0x3DCCCCCD#32))))
    shapeCasts_S16777216_S4096x4096

/-- The reference's modified weight matrix is the same function of the same arguments: the two programs apply the
    same operations, with the same constants, over dimension records that differ in name only. -/
theorem flipped_eq_reference (w : S4096x4096.Idx → EReal) (pos : S1000000.Idx → BitVec 32) (vals : S1000000.Idx → EReal) :
    flipped w pos vals = Cert.ReferenceIdeal.Read.val_main_v10 (F := Ideal) w pos vals := rfl

variable (m : (ℓ : Loc nD τ sig) → Buf (Elt Ideal) ℓ)

/-- The weight matrix the region stages is the overwritten matrix of the arguments. A value passes between two
    operations of the function through a buffer at the value's own type, so reading it back changes nothing. -/
theorem weights (c : Dev nD) :
    (V m c main_call0_v10 : S4096x4096.Idx → EReal)
      = flipped (m ((c : Thread nD τ).loc main_arg1)) (m ((c : Thread nD τ).loc main_arg2))
          (m ((c : Thread nD τ).loc main_arg3)) := by
  dsimp only [Gen.V, Gen.hostOps0]
  after_results
  simp only [Cert.TypedRef.ofBuf_toBuf]
  have hpos : (TRef.of main_arg2 : TRef sig ⟨S1000000, .i32⟩).ofBuf (m (c, Proc.tc.devRef main_arg2))
      = m ((c : Thread nD τ).loc main_arg2) := rfl
  have hvals : (TRef.of main_arg3 : TRef sig ⟨S1000000, .f32⟩).ofBuf (m (c, Proc.tc.devRef main_arg3))
      = m ((c : Thread nD τ).loc main_arg3) := rfl
  have hout : ∀ v : S16777216.Idx → EReal,
      (TRef.of main_call0_v9 : TRef sig ⟨S16777216, .f32⟩).toBuf (Val := Elt Ideal) v = v := fun _ => rfl
  have hflat : ∀ v : S16777216.Idx → EReal,
      (TRef.of main_call0_v0 : TRef sig ⟨S16777216, .f32⟩).ofBuf (Val := Elt Ideal) v = v := fun _ => rfl
  rw [hpos, hvals, hout, hflat]
  rfl

/-- The input the region stages is the input argument: narrowing a float is the identity on the extended reals. -/
theorem input (c : Dev nD) :
    (V m c main_call0_v11 : S256x4096.Idx → EReal) = m ((c : Thread nD τ).loc main_arg0) := by
  dsimp only [Gen.V, Gen.hostOps0]
  after_results
  rfl

end Cert.KernelIdeal.EntryArrays

end
-- ==== Proof.KernelRun.lean ====
/-
  The kernel's run: the output array ends at the linear layer of the input and the overwritten weight matrix.

  The output array after the run is the layer's output of the two arrays the region stages; the staged input is the
  input argument and the staged weight matrix is the weight argument overwritten at the listed positions. So every
  execution ends with the result at that function of the four arguments, and the arguments unchanged.
-/
import proofs.«168337_j16174846836835_2_alg».proof.Proof.OutputArray
import proofs.«168337_j16174846836835_2_alg».proof.Proof.EntryArrays

noncomputable section

namespace Cert.KernelIdeal.KernelRun

open Cert.KernelIdeal Cert.KernelIdeal.Gen Idealize.ShloMosaic Idealize.ShloMosaic.TcCoe Idealize.SL.Sem
open Cert.FlippedLinear

variable (m : (ℓ : Loc nD τ sig) → Buf (Elt Ideal) ℓ) (ρ : Dev nD → PrngReg)

/-- The output array after the run, as a function of the argument arrays. -/
theorem output (c : Dev nD) :
    (dats m 0 c).arrAt 2 cfg0.N
      = linear (m ((c : Thread nD τ).loc main_arg0))
          (EntryArrays.flipped (m ((c : Thread nD τ).loc main_arg1)) (m ((c : Thread nD τ).loc main_arg2))
            (m ((c : Thread nD τ).loc main_arg3))) := by
  have hx : OutputArray.stagedInput m c = m ((c : Thread nD τ).loc main_arg0) := EntryArrays.input m c
  have hw : OutputArray.stagedWeights m c
      = EntryArrays.flipped (m ((c : Thread nD τ).loc main_arg1)) (m ((c : Thread nD τ).loc main_arg2))
          (m ((c : Thread nD τ).loc main_arg3)) := EntryArrays.weights m c
  rw [OutputArray.final m c, hx, hw]

/-- Every weakly fair execution terminates with the result at the layer's output and the arguments unchanged. -/
theorem run : θ_run defs (onTc (τ := τ) (main (F := Ideal))) ⟨m, fun _ => 0, ρ⟩ fun r => ∀ c : Dev nD,
      r.2.mem ((c : Thread nD τ).loc main_v0)
        = linear (m ((c : Thread nD τ).loc main_arg0))
            (EntryArrays.flipped (m ((c : Thread nD τ).loc main_arg1)) (m ((c : Thread nD τ).loc main_arg2))
              (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (output m c), (h c).2⟩) (Value.run_blocks m ρ)

end Cert.KernelIdeal.KernelRun

end
-- ==== Proof.ReferenceLinear.lean ====
/-
  The reference's result is the linear layer of its own modified weight matrix.

  The reference ends with one product contracting the second axis of the input with the second axis of the modified
  weight matrix. Read at `(p, o)` it is the sum over `k` of the input at `(p, k)` times the matrix at `(o, k)`:
  row `p` of the input against row `o` of the weights.
-/
import proofs.«168337_j16174846836835_2_alg».proof.Proof.Gen.ReferenceIdeal.Read
import proofs.«168337_j16174846836835_2_alg».proof.Proof.RowProducts

noncomputable section

namespace Cert.ReferenceIdeal.RefValue

open Cert.ReferenceIdeal Cert.ReferenceIdeal.Read Idealize.ShloMosaic Idealize.ShloMosaic.ValueIdx
open Cert.FlippedLinear

/-- At output `(p, o)` and shared coordinate `k` the product reads the input at `(p, k)`. -/
theorem left_index (p : Fin 256) (o : Fin 4096) (k : Fin 4096) : lidx_main_v11 (ix2 p o) k = ix2 p k :=
  funext fun a => Fin.ext (by match a with | ⟨0, _⟩ => rfl | ⟨1, _⟩ => rfl)

/-- … and the weight matrix at `(o, k)`. -/
theorem right_index (p : Fin 256) (o : Fin 4096) (k : Fin 4096) : ridx_main_v11 (ix2 p o) k = ix2 o k :=
  funext fun a => Fin.ext (by match a with | ⟨0, _⟩ => rfl | ⟨1, _⟩ => rfl)

/-- The reference's last stage is the linear layer of the input and the modified weight matrix. -/
theorem result_eq (x : S256x4096.Idx → EReal) (w : S4096x4096.Idx → EReal) (pos : S1000000.Idx → BitVec 32)
    (vals : S1000000.Idx → EReal) :
    val_main_v11 (F := Ideal) x w pos vals = linear x (val_main_v10 (F := Ideal) w pos vals) := by
  funext i
  obtain ⟨p, o, rfl⟩ : ∃ (p : Fin 256) (o : Fin 4096), i = ix2 p o := ⟨i 0, i 1, eq_ix2 i⟩
  rw [val_main_v11_apply, linear_ix2]
  unfold rowDot
  refine Finset.sum_congr rfl fun k _ => ?_
  rw [left_index, right_index]

end Cert.ReferenceIdeal.RefValue

end
-- ==== Proof.lean ====
/-
  A linear layer whose weight matrix is first overwritten at listed positions, against its reference.

  Both programs take an input `x` (256 × 4096), a weight matrix `w` (4096 × 4096), a list of a million positions into
  the flattened weight matrix and a list of a million values. Both first overwrite the flattened matrix at each
  position (a position below zero counted from the end) with a tenth of the value, by the same operations with the
  same constant, and fold it back to a matrix `w'`. The reference then contracts the second axis of `x` with the
  second axis of `w'`. The kernel narrows `x` to a shorter float format, which changes nothing on the extended
  reals, and computes the same contraction block by block: grid point `t` of eight multiplies the whole input by rows
  `512·t … 512·t + 511` of `w'` into columns `512·t … 512·t + 511` of the output. At every entry `(p, o)` both
  results are the sum over `k` of `x (p, k) · w' (o, k)`, term for term, so no property of the inputs is used.
-/
import proofs.«168337_j16174846836835_2_alg».proof.Defs
import proofs.«168337_j16174846836835_2_alg».proof.Proof.Gen.Kernel
import proofs.«168337_j16174846836835_2_alg».proof.Proof.Gen.Kernel.Skeleton
import proofs.«168337_j16174846836835_2_alg».proof.Proof.Gen.Kernel.Launch
import proofs.«168337_j16174846836835_2_alg».proof.Proof.Gen.Kernel.Points
import proofs.«168337_j16174846836835_2_alg».proof.Proof.Gen.Kernel.Frame
import proofs.«168337_j16174846836835_2_alg».proof.Proof.Gen.KernelIdeal
import proofs.«168337_j16174846836835_2_alg».proof.Proof.Gen.KernelIdeal.Skeleton
import proofs.«168337_j16174846836835_2_alg».proof.Proof.Gen.KernelIdeal.Launch
import proofs.«168337_j16174846836835_2_alg».proof.Proof.Gen.KernelIdeal.Points
import proofs.«168337_j16174846836835_2_alg».proof.Proof.Gen.KernelIdeal.Frame
import proofs.«168337_j16174846836835_2_alg».proof.Proof.Gen.ReferenceIdeal
import proofs.«168337_j16174846836835_2_alg».proof.Proof.Gen.Pre_finite_inputs
import proofs.«168337_j16174846836835_2_alg».proof.Proof.Gen.KernelIdeal.Value
import proofs.«168337_j16174846836835_2_alg».proof.Proof.Gen.ReferenceIdeal.Run
import proofs.«168337_j16174846836835_2_alg».proof.Proof.Gen.ReferenceIdeal.Read
import proofs.«168337_j16174846836835_2_alg».proof.Proof.KernelRun
import proofs.«168337_j16174846836835_2_alg».proof.Proof.ReferenceLinear
import Idealize.ShloMosaic.Adequacy
import Idealize.ShloMosaic.Init

noncomputable section

namespace Cert.Proof

open Idealize.ShloMosaic Idealize.SL.Sem Cert.Kernel

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of array operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the linear layer of the input and the
    overwritten weight matrix: the kernel by its blocks, the reference by its one product over the matrix it builds
    with the same operations. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v11_eq _ _ _ _).trans
    ((Cert.ReferenceIdeal.RefValue.result_eq _ _ _ _).trans
      (congrArg (Cert.FlippedLinear.linear _) (Cert.KernelIdeal.EntryArrays.flipped_eq_reference _ _ _).symm))

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
